-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608 : Shape := ⟨1, ![8388608]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : IVec S8388608 32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  main_v3
-- ==== Kernel.lean ====
abbrev S8388608x4 : Shape := ⟨2, ![8388608, 4]⟩
abbrev S8388608 : Shape := ⟨1, ![8388608]⟩
abbrev S1x1 : Shape := ⟨2, ![1, 1]⟩
abbrev S262144x4 : Shape := ⟨2, ![262144, 4]⟩
abbrev S262144 : Shape := ⟨1, ![262144]⟩
abbrev S262144x1 : Shape := ⟨2, ![262144, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608, .i32⟩
  | .hbm, ⟨2, _⟩ => ⟨S1x1, .f32⟩
  | .hbm, ⟨3, _⟩ => ⟨S_, .f32⟩
  | .local _ .vmem, ⟨0, _⟩ => ⟨S262144x4, .f32⟩
  | .local _ .vmem, ⟨1, _⟩ => ⟨S262144x4, .f32⟩
  | .local _ .vmem, ⟨2, _⟩ => ⟨S262144, .i32⟩
  | .local _ .vmem, ⟨3, _⟩ => ⟨S262144, .i32⟩
  | .local _ .vmem, ⟨4, _⟩ => ⟨S1x1, .f32⟩
  | .local _ .vmem, ⟨5, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S262144x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S262144x4_S262144x4_0_0 : ∀ a, (![0, 0] : Fin 2 → Nat) a + S262144x4.size a ≤ S262144x4.size a
  h_S262144x4 : 0 < S262144x4.numel
  inb_S262144_S262144_0 : ∀ a, (![0] : Fin 1 → Nat) a + S262144.size a ≤ S262144.size a
  h_S262144 : 0 < S262144.numel
  iota_S262144x4_d1_w32 : S262144x4.Iotas .tc 32 [1]
  shapeCasts_S262144_S262144x1 : S262144.ShapeCasts S262144x1
  broadcasts_S262144x1_S262144x4 : S262144x1.Broadcasts S262144x4
  natLt_1_32 : 1 < 32
  reduces_S262144x4_S262144 : S262144x4.Reduces [1] S262144
  reduces_S262144x1_S1 : S262144x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x4.size a ≤ S8388608x4.size a
  hwx0_0 : ∀ i : grid0.Coords, EltTy.bits .f32 = 32 ∨ (Rect.block (s := S8388608x4) S262144x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S8388608.size a
  hwx0_1 : ∀ i : grid0.Coords, EltTy.bits .i32 = 32 ∨ (Rect.block (s := S8388608) S262144.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S262144x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x4 : Shape := ⟨2, ![8388608, 4]⟩
abbrev S8388608 : Shape := ⟨1, ![8388608]⟩
abbrev S4 : Shape := ⟨1, ![4]⟩
abbrev S1x4 : Shape := ⟨2, ![1, 4]⟩
abbrev S8388608x1 : Shape := ⟨2, ![8388608, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608, .i32⟩
  | .hbm, ⟨2, _⟩ => ⟨S4, .i32⟩
  | .hbm, ⟨3, _⟩ => ⟨S1x4, .i32⟩
  | .hbm, ⟨4, _⟩ => ⟨S8388608x1, .i32⟩
  | .hbm, ⟨5, _⟩ => ⟨S8388608x4, .i32⟩
  | .hbm, ⟨6, _⟩ => ⟨S8388608x4, .i32⟩
  | .hbm, ⟨7, _⟩ => ⟨S8388608x4, .i1⟩
  | .hbm, ⟨8, _⟩ => ⟨S8388608x4, .f32⟩
  | .hbm, ⟨9, _⟩ => ⟨S_, .f32⟩
  | .hbm, ⟨10, _⟩ => ⟨S8388608x4, .f32⟩
  | .hbm, ⟨11, _⟩ => ⟨S8388608x4, .f32⟩
  | .hbm, ⟨12, _⟩ => ⟨S8388608x4, .f32⟩
  | .hbm, ⟨13, _⟩ => ⟨S8388608x4, .f32⟩
  | .hbm, ⟨14, _⟩ => ⟨S8388608x4, .f32⟩
  | .hbm, ⟨15, _⟩ => ⟨S8388608x4, .f32⟩
  | .hbm, ⟨16, _⟩ => ⟨S8388608x4, .f32⟩
  | .hbm, ⟨17, _⟩ => ⟨S8388608x4, .f32⟩
  | .hbm, ⟨18, _⟩ => ⟨S8388608x4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S8388608_S8388608x1_0 : S8388608.BroadcastsInDim S8388608x1 (![0] : Fin 1 → Fin S8388608x1.rank)
  bcast_S1x4_S8388608x4_0_1 : S1x4.BroadcastsInDim S8388608x4 (![0, 1] : Fin 2 → Fin S8388608x4.rank)
  bcast_S8388608x1_S8388608x4_0_1 : S8388608x1.BroadcastsInDim S8388608x4 (![0, 1] : Fin 2 → Fin S8388608x4.rank)
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts₀]

class Facts : Prop extends Facts₀ where

variable [Facts]
-- ==== Proof.Pieces.lean ====
/-
  What one grid point leaves behind, as values.

  The kernel body keeps a running total in a one-element accumulator.  At every grid point it adds the point's
  block sum to the accumulator; at the first point it clears the accumulator beforehand; at the last point it also
  writes the accumulator, scaled, to the one-element output block.  The body therefore runs in three control cases
  (first point / middle points / last point).  This module reads, for each case, the contents the body leaves in the
  accumulator — and, in the last case, in the output block — as the body's own arithmetic terms applied to what the
  body loaded:

    first point   accumulator := step x t zero                      (the cleared accumulator is read back)
    middle point  accumulator := step x t acc
    last point    accumulator := step x t acc,   output := scale (step x t acc)

  where `x`, `t` are the point's blocks of logits and targets, `acc` is what the point before left, `zero` is the
  cleared accumulator (`k0_pay1`), `step` is "accumulator plus block sum" (`k0_pay2`) and `scale` is the product
  with the mean's factor (`k0_pay3`).  Every store of the body covers its whole one-element buffer, so the buffer's
  final contents are the last store's value, and a load of a buffer reads what the store before it wrote.
  The statements hold at every float instance.
-/
import proofs.«163935_j3126736191980_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

/-- The zero offsets of a rank-2 whole-buffer access, -/
theorem hz2 : (![0, 0] : Fin 2 → Nat) = fun _ => 0 := funext fun a => by fin_cases a <;> rfl
/-- and of a rank-1 one. -/
theorem hz1 : (![0] : Fin 1 → Nat) = fun _ => 0 := funext fun a => by fin_cases a; rfl

/-- MIDDLE POINTS: the accumulator ends at the step of the point's blocks over what it held. -/
theorem acc_middle (c : Dev nD) (i : grid0.Coords) (a1 : Memref sig .tc .vmem S262144x4 .f32) (h1 : a1.IsWhole)
    (a2 : Memref sig .tc .vmem S262144 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S262144x4 .f32) (x1 : Vec F S262144 .i32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S262144x4) hz2,
    View.ld_unit_zero (S := S262144) hz1, View.ld_unit_zero (S := S1x1) hz2]

/-- FIRST POINT: the accumulator is cleared, read back, and ends at the step over the cleared value. -/
theorem acc_first (c : Dev nD) (i : grid0.Coords) (a1 : Memref sig .tc .vmem S262144x4 .f32) (h1 : a1.IsWhole)
    (a2 : Memref sig .tc .vmem S262144 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S262144x4 .f32) (x1 : Vec F S262144 .i32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S262144x4) hz2,
    View.ld_unit_zero (S := S262144) hz1]

/-- LAST POINT: the accumulator ends at the step over what it held, as at a middle point, -/
theorem acc_last (c : Dev nD) (i : grid0.Coords) (a1 : Memref sig .tc .vmem S262144x4 .f32) (h1 : a1.IsWhole)
    (a2 : Memref sig .tc .vmem S262144 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S262144x4 .f32) (x1 : Vec F S262144 .i32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S262144x4) hz2,
    View.ld_unit_zero (S := S262144) hz1, View.ld_unit_zero (S := S1x1) hz2]

/-- and the output block ends at that accumulator value, scaled: the store into the output reads the accumulator
    back after the step was stored. -/
theorem out_last (c : Dev nD) (i : grid0.Coords) (a1 : Memref sig .tc .vmem S262144x4 .f32) (h1 : a1.IsWhole)
    (a2 : Memref sig .tc .vmem S262144 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S262144x4 .f32) (x1 : Vec F S262144 .i32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread, View.ld_unit_zero (S := S262144x4) hz2,
    View.ld_unit_zero (S := S262144) hz1, View.ld_unit_zero (S := S1x1) hz2]

end Cert.KernelIdeal.Found

end
-- ==== Proof.Spec.lean ====
/-
  The specification of the ordinal binary-cross-entropy mean, as one function of the argument arrays.

  For a row `r` with logits `x r c` (four thresholds `c`) and an integer target `t r`, the entry's loss is
      max (x r c) 0 - x r c * [c < t r] + log1p (exp (-|x r c|)),
  the bracket being `1` when threshold `c` lies strictly below the target (compared as signed integers) and `0`
  otherwise.  The result is the sum of all entries' losses divided by the number of entries, `8388608 * 4 = 2 ^ 25`.

  On the extended reals addition is commutative and associative (with `⊤ + ⊥ = ⊥` it is still a commutative monoid),
  so the grand sum may be grouped in any way: row by row, and the rows in 32 consecutive blocks of 262144 rows.  No
  finiteness of the entries is needed for that.  Division by the power of two `2 ^ 25` is the product with the power of
  two `2 ^ (-25)` at every extended real, both being exact binary values of their float patterns.
-/
import Idealize.ShloMosaic.PureOps.Ideal
import Idealize.ShloMosaic.PureOps.Ideal.Laws
import Idealize.ShloMosaic.Lib.ValueIdx

open scoped BigOperators

noncomputable section

namespace Cert.OrdinalBce

open Idealize.ShloMosaic Idealize.ShloMosaic.ValueIdx

/-! ## One entry -/

/-- The ordinal target of threshold `c` against target `t`: `1` when `c < t` as signed integers, else `0`. -/
def below (c t : BitVec 32) : EReal := (((IntOp.cmpi .slt c t).toNat : ℝ) : EReal)

/-- The loss of one entry: `max x 0 - x * [c < t] + log (1 + exp (-|x|))`, with `|x| = max x (-x)`. -/
def entryLoss (x : EReal) (c t : BitVec 32) : EReal :=
  max x 0 - x * below c t + Ideal.log1p (Ideal.exp (-(max x (-x))))

/-- A one-bit word widened to 32 bits and read as a signed integer is the bit read as a natural number: the widening
    adds zero bits, so the sign bit of the wide word is clear. -/
theorem toInt_setWidth_bit (b : BitVec 1) : ((b.setWidth 32).toInt : ℝ) = (b.toNat : ℝ) := by
  have h : ∀ b : BitVec 1, (b.setWidth 32).toInt = (b.toNat : Int) := by decide
  rw [h b]; norm_cast

/-- The entry's loss as the kernel spells it: the comparison bit widened and converted as a signed integer, the
    negation written `0 - |x|`, the zeros as the pattern of `+0.0`. -/
theorem entryLoss_of_widened (x : EReal) (c t : BitVec 32) :
    max x (Ideal.ofBits .f32 0x00000000#32) - x * ((((IntOp.cmpi .slt c t).setWidth 32).toInt : ℝ) : EReal)
        + Ideal.log1p (Ideal.exp (Ideal.ofBits .f32 0x00000000#32 - max x (-x)))
      = entryLoss x c t := by
  unfold entryLoss below
  rw [Ideal.ofBits_zero_f32, zero_sub, toInt_setWidth_bit]

/-- The entry's loss as the reference spells it: the comparison bit converted as an unsigned integer, the negation
    a negation. -/
theorem entryLoss_of_unsigned (x : EReal) (c t : BitVec 32) :
    max x (Ideal.ofBits .f32 0x00000000#32) - x * (((IntOp.cmpi .slt c t).toNat : ℝ) : EReal)
        + Ideal.log1p (Ideal.exp (-(max x (-x))))
      = entryLoss x c t := by
  unfold entryLoss below
  rw [Ideal.ofBits_zero_f32]

/-! ## The whole arrays -/

/-- The loss of entry `(r, c)` of the argument arrays: threshold `c` is the column number as a 32-bit word. -/
def lossAt (X : (⟨2, ![8388608, 4]⟩ : Shape).Idx → EReal) (T : (⟨1, ![8388608]⟩ : Shape).Idx → BitVec 32)
    (r : Fin 8388608) (c : Fin 4) : EReal :=
  entryLoss (X (ix2 r c)) (BitVec.ofNat 32 c.val) (T (ix1 r))

/-- The sum of all entries' losses, row by row. -/
def totalLoss (X : (⟨2, ![8388608, 4]⟩ : Shape).Idx → EReal) (T : (⟨1, ![8388608]⟩ : Shape).Idx → BitVec 32) : EReal :=
  ∑ r : Fin 8388608, ∑ c : Fin 4, lossAt X T r c

/-- THE RESULT: the mean loss, the total times `2 ^ (-25)`. -/
def meanLoss (X : (⟨2, ![8388608, 4]⟩ : Shape).Idx → EReal) (T : (⟨1, ![8388608]⟩ : Shape).Idx → BitVec 32) : EReal :=
  totalLoss X T * (((1 / 33554432 : ℝ) : ℝ) : EReal)

/-! ## Grouping the rows in 32 blocks of 262144 -/

/-- Row `262144 p + q` is row `q` of block `p`. -/
def blockEquiv : Fin 32 × Fin 262144 ≃ Fin 8388608 := finProdFinEquiv.trans (finCongr (by norm_num))

theorem blockEquiv_val (p : Fin 32) (q : Fin 262144) : (blockEquiv (p, q)).val = 262144 * p.val + q.val := by
  unfold blockEquiv
  simp [finProdFinEquiv]
  omega

/-- A sum over the rows is the sum over the blocks of the sums over each block's rows, in any commutative monoid. -/
theorem sum_rows_by_block {M : Type*} [AddCommMonoid M] (g : Fin 8388608 → M) :
    ∑ r : Fin 8388608, g r = ∑ p : Fin 32, ∑ q : Fin 262144, g ⟨262144 * p.val + q.val, by omega⟩ := by
  rw [← Equiv.sum_comp blockEquiv g, Fintype.sum_prod_type]
  exact Finset.sum_congr rfl fun p _ => Finset.sum_congr rfl fun q _ => congrArg g (Fin.ext (blockEquiv_val p q))

/-- The loss summed over block `p`: its 262144 rows, four entries each. -/
def blockLoss (X : (⟨2, ![8388608, 4]⟩ : Shape).Idx → EReal) (T : (⟨1, ![8388608]⟩ : Shape).Idx → BitVec 32) (p : Fin 32) : EReal :=
  ∑ q : Fin 262144, ∑ c : Fin 4, lossAt X T ⟨262144 * p.val + q.val, by omega⟩ c

/-- The total is the sum of the 32 block losses. -/
theorem totalLoss_eq_sum_blocks (X : (⟨2, ![8388608, 4]⟩ : Shape).Idx → EReal) (T : (⟨1, ![8388608]⟩ : Shape).Idx → BitVec 32) :
    totalLoss X T = ∑ p : Fin 32, blockLoss X T p :=
  sum_rows_by_block fun r => ∑ c : Fin 4, lossAt X T r c

/-! ## The two powers of two -/

/-- The pattern `0x33000000` is `2 ^ (-25)`, the reciprocal of the number of entries. -/
theorem ofBits_inv_count : Ideal.ofBits .f32 0x33000000#32 = (((1 / 33554432 : ℝ) : ℝ) : EReal) := by
  simp [Ideal.ofBits, Ideal.ieee, -EReal.coe_mul]; norm_num

/-- The pattern `0x4C000000` is `2 ^ 25`, the number of entries. -/
theorem ofBits_count : Ideal.ofBits .f32 0x4C000000#32 = ((33554432 : ℝ) : EReal) := by
  simp [Ideal.ofBits, Ideal.ieee, -EReal.coe_mul]; norm_num

/-- Dividing by the number of entries is multiplying by its reciprocal, at every extended real. -/
theorem div_count (s : EReal) :
    Ideal.div s (Ideal.ofBits .f32 0x4C000000#32) = s * Ideal.ofBits .f32 0x33000000#32 := by
  rw [ofBits_count, ofBits_inv_count]
  exact Ideal.div_coe (by norm_num) s

end Cert.OrdinalBce

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.Body.lean ====
/-
  The body's arithmetic, read at an index at the extended reals.

  At one grid point the body holds a block `x` of 262144 rows of four logits and the block `t` of the rows' targets.
  It forms, entry by entry, the ordinal target `[c < t q]` (a column counter compared with the row's target, the
  comparison bit widened and converted to a float), the entry's loss, the four losses of each row summed, the
  262144 row sums summed, and adds that block sum to the accumulator.  Each of these intermediate values gets a name
  here; the step the body stores is, by unfolding, the last of them; and each is read at an index:

      the step at the one index  =  the accumulator there  +  the sum over rows q and columns c of
                                    entryLoss (x (q, c)) c (t q).

  The two sums' zero seeds contribute nothing (a float sum from the neutral seed is the plain sum at the extended
  reals), the row-sum vector viewed as a column and the one-entry result viewed as a 1 × 1 block keep their entries,
  and the targets viewed as a column and broadcast along the columns give every entry its row's target.
-/
import proofs.«163935_j3126736191980_1_alg».proof.Proof.Gen.KernelIdeal.Skeleton
import proofs.«163935_j3126736191980_1_alg».proof.Proof.Spec
import proofs.«163935_j3126736191980_1_alg».proof.Proof.LibKeepdims
import Idealize.ShloMosaic.Lib.ValueLayout

open scoped BigOperators

noncomputable section

namespace Cert.KernelIdeal.Body

open Cert.KernelIdeal Cert.KernelIdeal.Gen Idealize.ShloMosaic Idealize.ShloMosaic.ValueIdx
open Cert.OrdinalBce Cert.LibKeepdims

variable {F : FTy → Type} [FloatOps F]

/-! ## The intermediate values, named -/

/-- The block's ordinal targets: at `(q, c)` the float of the bit `c < t q`. -/
def ordinalVec (t : Vec F S262144 .i32) : FVec F S262144x4 .f32 :=
  sitofp .f32 (extui 32 (cmpi .slt (iota .tc S262144x4 32 [1] iota_S262144x4_d1_w32)
    (broadcastTo S262144x4 (shapeCast S262144x1 t shapeCasts_S262144_S262144x1) broadcasts_S262144x1_S262144x4)) natLt_1_32)

/-- The block's losses, entry by entry. -/
def lossVec (x : Vec F S262144x4 .f32) (t : Vec F S262144 .i32) : FVec F S262144x4 .f32 :=
  addf (subf (maximumf x (broadcast S262144x4 (Scalar.ofBits .f32 0x00000000#32))) (mulf x (ordinalVec t)))
    (log1p (exp (subf (broadcast S262144x4 (Scalar.ofBits .f32 0x00000000#32)) (absf x))))

/-- Each row's four entries summed. -/
def rowSums (v : FVec F S262144x4 .f32) : FVec F S262144 .f32 :=
  multiReduction .add [1] S262144 v 0x00000000#32 reduces_S262144x4_S262144 (.inl rfl) rfl

/-- The 262144 row values summed, as a 1 × 1 block. -/
def blockSum (w : FVec F S262144 .f32) : FVec F S1x1 .f32 :=
  shapeCast S1x1 (multiReduction .add [0] S1 (shapeCast S262144x1 w shapeCasts_S262144_S262144x1) 0x00000000#32
    reduces_S262144x1_S1 (.inl rfl) rfl) shapeCasts_S1_S1x1

/-- The step the body stores into the accumulator is the accumulator plus the block sum of the row sums of the
    losses (the printed term, its intermediate values named). -/
theorem step_eq (x : Vec F S262144x4 .f32) (t : Vec F S262144 .i32) (acc : Vec F S1x1 .f32) :
    k0_pay2 x t acc = shapeCast S1x1 (addf acc (blockSum (rowSums (lossVec x t)))) shapeCasts_S1x1_S1x1 := rfl

/-! ## Read at an index, at the extended reals -/

/-- The ordinal target at `(q, c)`: the bit `c < t q`, widened to 32 bits and read as a signed integer. -/
theorem ordinalVec_apply (t : Vec Ideal S262144 .i32) (q : Fin 262144) (c : Fin 4) :
    ordinalVec (F := Ideal) t (ix2 q c)
      = ((((IntOp.cmpi .slt (BitVec.ofNat 32 c.val) (t (ix1 q))).setWidth 32).toInt : ℝ) : EReal) := by
  unfold ordinalVec
  show FloatOps.sitofp (F := Ideal) .f32 ((IntOp.cmpi .slt (iota .tc S262144x4 32 [1] iota_S262144x4_d1_w32 (ix2 q c))
    (broadcastTo S262144x4 (shapeCast S262144x1 t shapeCasts_S262144_S262144x1) broadcasts_S262144x1_S262144x4 (ix2 q c))).setWidth 32) = _
  rw [iota_single_apply, broadcastTo_a1_ab_apply, shapeCast_a_a1_apply]
  rfl

/-- The loss at `(q, c)` is the specification's entry loss of the logit there, the column number and the row's target. -/
theorem lossVec_apply (x : Vec Ideal S262144x4 .f32) (t : Vec Ideal S262144 .i32) (q : Fin 262144) (c : Fin 4) :
    lossVec (F := Ideal) x t (ix2 q c) = entryLoss (x (ix2 q c)) (BitVec.ofNat 32 c.val) (t (ix1 q)) := by
  have h := ordinalVec_apply t q c
  rw [← entryLoss_of_widened, ← h]
  rfl

/-- A row's sum is the sum of its four entries. -/
theorem rowSums_apply (v : FVec Ideal S262144x4 .f32) (q : Fin 262144) :
    rowSums (F := Ideal) v (ix1 q) = ∑ c : Fin 4, v (ix2 q c) :=
  multiReduction_add_rows v _ _ _ _ q

/-- The block sum, at its one index, is the sum of the 262144 row values. -/
theorem blockSum_apply (w : FVec Ideal S262144 .f32) (u u' : Fin 1) :
    blockSum (F := Ideal) w (ix2 u u') = ∑ q : Fin 262144, w (ix1 q) := by
  unfold blockSum
  rw [shapeCast_a_1a_apply]
  refine (multiReduction_add_cols (shapeCast S262144x1 w shapeCasts_S262144_S262144x1) _ _ _ _ u').trans ?_
  exact Finset.sum_congr rfl fun q _ => shapeCast_a_a1_apply w _ q u'

/-- THE STEP at its one index: the accumulator there plus the block's loss, row by row and column by column. -/
theorem step_apply (x : Vec Ideal S262144x4 .f32) (t : Vec Ideal S262144 .i32) (acc : Vec Ideal S1x1 .f32) (u u' : Fin 1) :
    k0_pay2 (F := Ideal) x t acc (ix2 u u')
      = acc (ix2 u u') + ∑ q : Fin 262144, ∑ c : Fin 4, entryLoss (x (ix2 q c)) (BitVec.ofNat 32 c.val) (t (ix1 q)) := by
  rw [step_eq, shapeCast_self]
  show acc (ix2 u u') + blockSum (rowSums (lossVec x t)) (ix2 u u') = _
  rw [blockSum_apply]
  refine congrArg (acc (ix2 u u') + ·) (Finset.sum_congr rfl fun q _ => ?_)
  rw [rowSums_apply]
  exact Finset.sum_congr rfl fun c _ => lossVec_apply x t q c

/-- The cleared accumulator holds zero. -/
theorem clear_apply (u u' : Fin 1) : k0_pay1 (F := Ideal) (ix2 u u') = 0 := by
  unfold k0_pay1
  rw [shapeCast_self]
  exact Ideal.ofBits_zero_f32

/-- The scaled value is the product with the pattern of `2 ^ (-25)`. -/
theorem scale_apply (v : Vec Ideal S1x1 .f32) (u u' : Fin 1) :
    k0_pay3 (F := Ideal) v (ix2 u u') = v (ix2 u u') * Ideal.ofBits .f32 0x33000000#32 := rfl

end Cert.KernelIdeal.Body

end
-- ==== Proof.Blocks.lean ====
/-
  The input blocks, read off the argument arrays.

  The grid has 32 points; at point `t` the logits window holds rows `262144 t … 262144 t + 262143` of the
  8388608 × 4 array (all four columns), and the targets window the same rows of the target vector: the windows' block
  index at point `t` is `(t, 0)`, respectively `(t)`, the block extents are 262144 × 4 and 262144, and an entry's array
  coordinate is block index × block extent + its coordinate inside the block.  No host operation precedes the kernel,
  so the arrays the kernel finds are the arguments themselves.
-/
import proofs.«163935_j3126736191980_1_alg».proof.Proof.Gen.KernelIdeal.Frame
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The block indices over the grid: point `t` takes row block `t` of both inputs, and all the columns. -/
theorem index_facts : ∀ t : Fin cfg0.N,
    win0_0.index t 0 = t.val ∧ win0_0.index t 1 = 0 ∧ win0_1.index t 0 = t.val :=
  (by decide +kernel : ∀ t : Fin grid0.N, win0_0.index t 0 = t.val ∧ win0_0.index t 1 = 0 ∧ win0_1.index t 0 = t.val)

/-- Entry `(q, k)` of the logits block at point `t` is entry `(262144 t + q, k)` of the logits. -/
theorem logits_block (c : Dev nD) (t : Fin cfg0.N) (p : Fin 32) (hp : p.val = t.val) (q : Fin 262144) (k : Fin 4) :
    (iblk m c 0 t : Vec F S262144x4 .f32) (ix2 q k)
      = m ((c : Thread nD τ).loc main_arg0) (ix2 (⟨262144 * p.val + q.val, by omega⟩ : Fin 8388608) k) := by
  unfold iblk
  rw [View.read_apply]
  show V m c main_arg0 _ = m (c.tc.loc main_arg0) _
  unfold V
  congr 1
  funext a
  apply Fin.ext
  match a with
  | ⟨0, _⟩ =>
    show win0_0.index t 0 * 262144 + 1 * q.val = 262144 * p.val + q.val
    rw [(index_facts t).1, hp]; omega
  | ⟨1, _⟩ =>
    show win0_0.index t 1 * 4 + 1 * k.val = k.val
    rw [(index_facts t).2.1]; omega

/-- Entry `q` of the targets block at point `t` is entry `262144 t + q` of the targets. -/
theorem targets_block (c : Dev nD) (t : Fin cfg0.N) (p : Fin 32) (hp : p.val = t.val) (q : Fin 262144) :
    (iblk m c 1 t : Vec F S262144 .i32) (ix1 q)
      = m ((c : Thread nD τ).loc main_arg1) (ix1 (⟨262144 * p.val + q.val, by omega⟩ : Fin 8388608)) := by
  unfold iblk
  rw [View.read_apply]
  show V m c main_arg1 _ = m (c.tc.loc main_arg1) _
  unfold V
  congr 1
  funext a
  apply Fin.ext
  match a with
  | ⟨0, _⟩ =>
    show win0_1.index t 0 * 262144 + 1 * q.val = 262144 * p.val + q.val
    rw [(index_facts t).2.2, hp]; omega

end Cert.KernelIdeal.Blocks

end
-- ==== Proof.Chain.lean ====
/-
  The accumulator over the grid.

  After point `n` the accumulator holds the step of point `n`'s blocks over what point `n - 1` left, and at point `0`
  over the cleared value: a chain of 32 steps.  What the frame run records point by point as the accumulator's contents
  is this chain, by induction on the point: the first point is in the first control case, every later point in the
  middle or the last case, and in all three the accumulator ends at the step (the found pieces, read as values).  At
  the last point the output block ends at the scaled accumulator.

  At the extended reals a step adds the point's block loss, so after point `n` the accumulator holds the sum of the
  block losses of points `0 … n`: the cleared value is zero, and each step adds one more term.  The terms are the
  specification's block losses of the argument arrays, because point `p`'s blocks are rows `262144 p …` of them.
-/
import proofs.«163935_j3126736191980_1_alg».proof.Proof.Pieces
import proofs.«163935_j3126736191980_1_alg».proof.Proof.Body
import proofs.«163935_j3126736191980_1_alg».proof.Proof.Blocks

open scoped BigOperators

noncomputable section

open Idealize.ShloMosaic Idealize.ShloMosaic.TcCoe Idealize.SL.Sem

namespace Cert.KernelIdeal.Chain

open Cert.KernelIdeal Cert.KernelIdeal.Gen Idealize.ShloMosaic.ValueIdx
open Cert.KernelIdeal.Found Cert.KernelIdeal.Body Cert.KernelIdeal.Blocks Cert.OrdinalBce

section AnyInstance

variable {F : FTy → Type} [FloatOps F]
variable (m : (ℓ : Loc nD τ sig) → Buf (Elt F) ℓ)

/-- The accumulator after point `n`: the step of the point's blocks over the accumulator after point `n - 1`, over the
    cleared value at the first point. -/
def accAfter (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (accAfter c n (Nat.lt_of_succ_lt h))

/-- What the run records as the accumulator's contents after point `n` is the chain — by induction on the point. -/
theorem acc_eq (c : Dev nD) : ∀ (n : ℕ) (h : n < cfg0.N), (outsAt0 m c n h).2 = accAfter m c n h
  | 0, h => by
    refine (congrArg Prod.snd (outsAt0_A m c ⟨0, h⟩ rfl (by dsimp only; omega))).trans ?_
    dsimp only
    rw [acc_first, accAfter]
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · refine (congrArg Prod.snd (outsAt0_C m c ⟨n + 1, h⟩ h0 h1)).trans ?_
      dsimp only
      rw [acc_last]
      show k0_pay2 _ _ (outsAt0 m c n _).2 = k0_pay2 _ _ (accAfter m c n _)
      rw [acc_eq c n]
    · refine (congrArg Prod.snd (outsAt0_B m c ⟨n + 1, h⟩ h0 h1)).trans ?_
      dsimp only
      rw [acc_middle]
      show k0_pay2 _ _ (outsAt0 m c n _).2 = k0_pay2 _ _ (accAfter m c n _)
      rw [acc_eq c n]

/-- At the last point the output block ends at the scaled accumulator. -/
theorem out_eq (c : Dev nD) (n : ℕ) (h : n + 1 < cfg0.N) (h1 : (n + 1) % 32 = 31) :
    (outsAt0 m c (n + 1) h).1 = k0_pay3 (accAfter m c (n + 1) h) := by
  have h0 : ¬(⟨n + 1, h⟩ : Fin cfg0.N).val % 32 = 0 := by dsimp only; omega
  refine (congrArg Prod.fst (outsAt0_C m c ⟨n + 1, h⟩ h0 h1)).trans ?_
  dsimp only
  rw [out_last]
  show k0_pay3 (k0_pay2 _ _ (outsAt0 m c n _).2) = k0_pay3 (k0_pay2 _ _ (accAfter m c n _))
  rw [acc_eq m c n]

end AnyInstance

section AtTheExtendedReals

variable (m : (ℓ : Loc nD τ sig) → Buf (Elt Ideal) ℓ)

/-- The loss of the block of rows that point `n` takes, of the argument arrays. -/
def pointLoss (c : Dev nD) (n : ℕ) (h : n < cfg0.N) : EReal :=
  blockLoss (m ((c : Thread nD τ).loc main_arg0)) (m ((c : Thread nD τ).loc main_arg1)) ⟨n, lt_of_lt_of_eq h N_0⟩

/-- A step at point `n` adds that loss: the point's blocks are the block's rows of the arrays. -/
theorem step_at (c : Dev nD) (n : ℕ) (h : n < cfg0.N) (acc : Vec Ideal S1x1 .f32) :
    k0_pay2 (F := Ideal) (iblk m c 0 ⟨n, h⟩) (iblk m c 1 ⟨n, h⟩) acc (ix2 0 0) = acc (ix2 0 0) + pointLoss m c n h := by
  rw [step_apply]
  refine congrArg (acc (ix2 0 0) + ·) ?_
  unfold pointLoss blockLoss
  refine Finset.sum_congr rfl fun q _ => Finset.sum_congr rfl fun k _ => ?_
  unfold lossAt
  exact congrArg₂ (fun a b => entryLoss a (BitVec.ofNat 32 k.val) b)
    (logits_block m c ⟨n, h⟩ ⟨n, lt_of_lt_of_eq h N_0⟩ rfl q k) (targets_block m c ⟨n, h⟩ ⟨n, lt_of_lt_of_eq h N_0⟩ rfl q)

/-- After point `n` the accumulator holds the sum of the losses of the blocks of points `0 … n`. -/
theorem acc_closed (c : Dev nD) : ∀ (n : ℕ) (h : n < cfg0.N),
    accAfter m c n h (ix2 0 0) = ∑ p : Fin (n + 1), pointLoss m c p.val (lt_of_lt_of_le p.isLt h)
  | 0, h => by
    rw [accAfter, step_at, clear_apply, zero_add, Fin.sum_univ_castSucc, Fin.sum_univ_zero, zero_add]
    rfl
  | n + 1, h => by
    rw [accAfter, step_at, acc_closed c n, Fin.sum_univ_castSucc (n := n + 1)]
    rfl

end AtTheExtendedReals

end Cert.KernelIdeal.Chain

end
-- ==== Proof.KernelRun.lean ====
/-
  The kernel's result.

  The output window is a single 1 × 1 block whose index never moves; the pipeline writes it back once, after the last
  grid point (point 31), where the body stored the scaled accumulator into it.  So the 1 × 1 result array ends holding
  that value: the one write-back's block is the whole array.  After the kernel, the program reshapes the 1 × 1 array to
  a scalar, which keeps its one entry.  The arguments are inputs of the pipeline and end unchanged.

  At the extended reals the accumulator after point 31 is the sum of the 32 block losses, that is the total loss of
  the argument arrays, and the scale is `2 ^ (-25)`: the scalar result is the specification's mean loss.
-/
import proofs.«163935_j3126736191980_1_alg».proof.Proof.Chain
import Idealize.ShloMosaic.Lib.Pipeline.Value
import Idealize.ShloMosaic.Lib.StableHlo.Run
import Idealize.ShloMosaic.Lib.Tactic

open scoped BigOperators

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Idealize.ShloMosaic.StableHlo
open Cert.KernelIdeal.Body Cert.KernelIdeal.Chain Cert.OrdinalBce

section AnyInstance

variable {F : FTy → Type} [FloatOps F]
variable (m : (ℓ : Loc nD τ sig) → Buf (Elt F) ℓ) (ρ : Dev nD → PrngReg)

/-- Point 31 is a point of the grid. -/
theorem lt31 : 31 < cfg0.N := by rw [show cfg0.N = 32 from N_0]; decide

/-- The output window's block index is `(0, 0)` at every point. -/
theorem out_index_facts : ∀ t : Fin cfg0.N, win0_2.index t 0 = 0 ∧ win0_2.index t 1 = 0 :=
  (by decide +kernel : ∀ t : Fin grid0.N, win0_2.index t 0 = 0 ∧ win0_2.index t 1 = 0)

/-- The 1 × 1 result array's final contents: the accumulator after the last point, scaled. -/
abbrev outBlock (c : Dev nD) : Buf (Elt F) ((c : Thread nD τ).loc main_v0) := k0_pay3 (accAfter m c 31 lt31)

/-- The one write-back, after point 31, writes it: block `(0, 0)` of the 1 × 1 array, read through zero offsets, is
    the array. -/
theorem flushed_eq (c : Dev nD) (t : Fin cfg0.N) (hf : (cfg0.win 2).flush t = true) :
    (dats m 0 c).flushed 2 t = ((cfg0.win 2).blk t).view.read (Elt F) (outBlock m c) := by
  have hN : cfg0.N = 32 := N_0
  have h31 : t.val = 31 := by have := (flush0_2 t).mp hf; have := t.isLt; omega
  obtain rfl : t = ⟨31, lt31⟩ := Fin.ext h31
  have e : (dats m 0 c).after 2 ⟨31, lt31⟩ = outBlock m c := (after0_2 m c _).trans (out_eq m c 30 lt31 (by decide))
  show (cfg0.win 2).cut (grid0.coords ⟨31, lt31⟩) ((dats m 0 c).after 2 ⟨31, lt31⟩) = _
  rw [e]
  have hz' : (fun a => win0_2.index ⟨31, lt31⟩ a * main_v0.ty.shape.size a) = fun _ => 0 :=
    funext fun a => by
      match a with
      | ⟨0, _⟩ => show win0_2.index ⟨31, lt31⟩ 0 * _ = 0; rw [(out_index_facts _).1, Nat.zero_mul]
      | ⟨1, _⟩ => show win0_2.index ⟨31, lt31⟩ 1 * _ = 0; rw [(out_index_facts _).2, Nat.zero_mul]
  exact (Memref.read_access_unit_zero (Elt F) main_v0 hz' (fun a => by rw [congrFun hz' a]; simp) (outBlock m c)).symm

/-- So the result array ends holding it: point 31's block covers the array. -/
theorem final_out (c : Dev nD) : (dats m 0 c).arrAt 2 cfg0.N = outBlock m c :=
  (dats m 0 c).arrAt_eq_of_cover 2 (outBlock m c) (flushed_eq m c) fun i =>
    ⟨⟨31, lt31⟩, (flush0_2 _).mpr rfl, by
      show i ∈ ((View.whole main_v0).slice (win0_2.rect ⟨31, lt31⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨31, lt31⟩ 0 * win0_2.size 0 ≤ (i 0 : Nat)
          ∧ (i 0 : Nat) < win0_2.index ⟨31, lt31⟩ 0 * win0_2.size 0 + win0_2.xsize (grid0.coords ⟨31, lt31⟩) 0
        rw [(out_index_facts _).1, show win0_2.xsize (grid0.coords ⟨31, lt31⟩) 0 = 1 from by decide +kernel]; omega
      | ⟨1, _⟩ =>
        show win0_2.index ⟨31, lt31⟩ 1 * win0_2.size 1 ≤ (i 1 : Nat)
          ∧ (i 1 : Nat) < win0_2.index ⟨31, lt31⟩ 1 * win0_2.size 1 + win0_2.xsize (grid0.coords ⟨31, lt31⟩) 1
        rw [(out_index_facts _).2, show win0_2.xsize (grid0.coords ⟨31, lt31⟩) 1 = 1 from by decide +kernel]; omega⟩

/-- The host line after the kernel reshapes the 1 × 1 array to a scalar: the scalar result is the reshape of the
    array's final contents. -/
theorem tail_eq (c : Dev nD) :
    Pipeline.afterTail₀ cfgs (dats m) 0 (V0 m) [hostOps1] c main_v1 = shapeCast S_ (outBlock m c) shapeCasts_S1x1_S_ := by
  have hw := (Pipeline.withArrays_arr spec0 launch0.win.arr_inj c (V0 m c) (fun w => (dats m 0 c).arrAt w cfg0.N) 2).trans
    (final_out m c)
  unfold Pipeline.afterTail₀
  show StableHlo.after hostOps1 _ (Proc.devRef .tc main_v1) = _
  after_results
  exact congrArg (fun X : Buf (Elt F) ((c : Thread nD τ).loc main_v0) => shapeCast S_ X shapeCasts_S1x1_S_) hw

/-- THE RUN, read: every weakly fair execution terminates with the scalar result at the reshape of the scaled
    accumulator and the arguments unchanged. -/
theorem run : θ_run defs (onTc (τ := τ) (main (F := F))) ⟨m, fun _ => 0, ρ⟩ fun r => ∀ c : Dev nD,
      r.2.mem ((c.tc : Thread nD τ).loc main_v1) = shapeCast S_ (outBlock m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end AnyInstance

section AtTheExtendedReals

variable (m : (ℓ : Loc nD τ sig) → Buf (Elt Ideal) ℓ)

/-- At the extended reals the scalar result is the mean loss of the argument arrays. -/
theorem result_value (c : Dev nD) :
    shapeCast S_ (outBlock m c) shapeCasts_S1x1_S_
      = fun _ => meanLoss (m ((c : Thread nD τ).loc main_arg0)) (m ((c : Thread nD τ).loc main_arg1)) := by
  funext i
  rw [shapeCast_apply (outBlock m c) shapeCasts_S1x1_S_ i (ix2 (0 : Fin 1) (0 : Fin 1)) (by
    have h := Nat.lt_one_iff.mp (S_.rowMajor i).isLt
    rw [h]
    show (S1x1.rowMajor (ix2 (0 : Fin 1) (0 : Fin 1))).val = 0
    rw [Shape.rowMajor_val_two]; rfl)]
  show k0_pay3 (F := Ideal) (accAfter m c 31 lt31) (ix2 0 0) = _
  rw [scale_apply, acc_closed, ofBits_inv_count]
  unfold meanLoss
  rw [totalLoss_eq_sum_blocks]
  rfl

end AtTheExtendedReals

end Cert.KernelIdeal.Result

end
-- ==== Proof.RefIs.lean ====
/-
  The reference computes the specification.

  The reference forms the ordinal targets from a column counter and the targets broadcast over the columns, the same
  entry losses over the whole 8388608 × 4 array at once, sums every entry from a zero seed, and divides by the number
  of entries.  Read one operation at a time at an index: the counter at `(r, c)` is `c`, the broadcast target is row
  `r`'s, the comparison bit is converted as an unsigned integer and the negation is a negation, so the entry is the
  specification's loss; the sum over all index pairs is the sum over rows and columns; the zero seed adds nothing; and
  dividing by `2 ^ 25` is multiplying by `2 ^ (-25)`.
-/
import proofs.«163935_j3126736191980_1_alg».proof.Proof.Gen.ReferenceIdeal.Read
import proofs.«163935_j3126736191980_1_alg».proof.Proof.Spec

open scoped BigOperators

noncomputable section

namespace Cert.ReferenceIdeal.RefValue

open Cert.ReferenceIdeal Cert.ReferenceIdeal.Read Idealize.ShloMosaic Idealize.ShloMosaic.ValueIdx Cert.OrdinalBce

/-- The targets, made a column and broadcast over the columns, are read at `(r, c)` at row `r`. -/
theorem row_idx (r : Fin 8388608) (c : Fin 4) : idx_main_v2 (idx_main_v4 (ix2 r c)) = ix1 r :=
  funext fun a => Fin.ext (by match a with | ⟨0, _⟩ => rfl)

/-- The column counter, made a row and broadcast over the rows, is read at `(r, c)` at column `c`. -/
theorem col_idx (r : Fin 8388608) (c : Fin 4) : idx_main_v1 (idx_main_v3 (ix2 r c)) = ix1 c :=
  funext fun a => Fin.ext (by match a with | ⟨0, _⟩ => rfl)

/-- The reference's loss array at `(r, c)` is the specification's loss of that entry. -/
theorem loss_apply (X : (⟨S8388608x4, .f32⟩ : BufTy).Contents (Elt Ideal)) (T : (⟨S8388608, .i32⟩ : BufTy).Contents (Elt Ideal))
    (r : Fin 8388608) (c : Fin 4) : val_main_v15 (F := Ideal) X T (ix2 r c) = lossAt X T r c := by
  rw [val_main_v15_apply, val_main_v10_apply, val_main_v14_apply, val_main_v13_apply, val_main_v12_apply, val_main_v11_apply,
    val_main_v8_apply, val_main_v9_apply, val_main_v7_apply, val_main_cst_apply, val_main_v6_apply, val_main_v5_apply,
    val_main_v3_apply, val_main_v1_apply, val_main_v0_apply, val_main_v4_apply, val_main_v2_apply, row_idx, col_idx]
  unfold lossAt
  rw [← entryLoss_of_unsigned]
  rfl

/-- THE REFERENCE'S RESULT is the mean loss of its arguments. -/
theorem result_eq (X : (⟨S8388608x4, .f32⟩ : BufTy).Contents (Elt Ideal)) (T : (⟨S8388608, .i32⟩ : BufTy).Contents (Elt Ideal)) :
    val_main_v17 (F := Ideal) X T = fun _ => meanLoss X T := by
  funext i
  rw [val_main_v17_apply, val_main_v16_apply, val_main_cst_1_apply, val_main_cst_0_apply]
  show Ideal.div (Ideal.ofBits .f32 0x00000000#32 + ∑ j : S8388608x4.Idx, val_main_v15 (F := Ideal) X T j)
    (Ideal.ofBits .f32 0x4C000000#32) = _
  rw [Ideal.ofBits_zero_f32, zero_add, div_count, sum_idx2]
  unfold meanLoss totalLoss
  rw [ofBits_inv_count]
  refine congrArg (fun s : EReal => s * (((1 / 33554432 : ℝ) : ℝ) : EReal)) ?_
  refine Finset.sum_congr rfl fun r _ => ?_
  refine Finset.sum_congr rfl fun c _ => ?_
  exact loss_apply X T r c

end Cert.ReferenceIdeal.RefValue

end
-- ==== Proof.lean ====
/-
  The ordinal binary-cross-entropy mean: the kernel against its reference, at the extended reals.

  Both programs take 8388608 rows of four logits and one integer target per row, form for every entry the loss
      max x 0 - x * [c < t] + log1p (exp (-|x|))
  (`c` the entry's column, `t` its row's target, the comparison signed), and return the mean of all 2 ^ 25 losses.

  The kernel walks the rows in 32 consecutive blocks of 262144.  At each block it sums the four losses of every row,
  then the 262144 row sums, and adds the block's sum to a one-element accumulator that it cleared at the first block;
  after the last block it multiplies the accumulator by `2 ^ (-25)` and writes the product to its 1 × 1 result, which
  the program then reshapes to a scalar.  The reference sums all entries at once and divides by `2 ^ 25`.

  The two results are the same extended real:
    • entry by entry the two losses are one expression — the kernel's `0 - |x|` is the reference's `-|x|`, and a
      comparison bit converted to a float is `0` or `1` whether it is first widened and read signed or read unsigned;
    • addition of extended reals is commutative and associative (also at the infinities), so the kernel's grouping of the
      grand sum — by row, by block, block after block from a cleared accumulator, each partial sum from a zero seed — is
      the reference's single sum;
    • `2 ^ 25` and `2 ^ (-25)` are exact values of their float patterns, and dividing by the first is multiplying by
      the second at every extended real.
  None of these steps needs the entries to be finite, so the precondition is not used for the values.

  The kernel's run (it terminates, nothing faults, the arguments end unchanged) and the accumulator's contents point by
  point are the generated frame's; the reference's run and its operations read at an index are the generated run's.  The
  ideal pass rewrote nothing in the kernel, so the idealized kernel is the kernel's own text read at the extended reals.
-/
import proofs.«163935_j3126736191980_1_alg».proof.Defs
import proofs.«163935_j3126736191980_1_alg».proof.Proof.Gen.Kernel
import proofs.«163935_j3126736191980_1_alg».proof.Proof.Gen.Kernel.Skeleton
import proofs.«163935_j3126736191980_1_alg».proof.Proof.Gen.Kernel.Launch
import proofs.«163935_j3126736191980_1_alg».proof.Proof.Gen.Kernel.Points
import proofs.«163935_j3126736191980_1_alg».proof.Proof.Gen.Kernel.Frame
import proofs.«163935_j3126736191980_1_alg».proof.Proof.Gen.KernelIdeal
import proofs.«163935_j3126736191980_1_alg».proof.Proof.Gen.KernelIdeal.Skeleton
import proofs.«163935_j3126736191980_1_alg».proof.Proof.Gen.KernelIdeal.Launch
import proofs.«163935_j3126736191980_1_alg».proof.Proof.Gen.KernelIdeal.Points
import proofs.«163935_j3126736191980_1_alg».proof.Proof.Gen.KernelIdeal.Frame
import proofs.«163935_j3126736191980_1_alg».proof.Proof.Gen.ReferenceIdeal
import proofs.«163935_j3126736191980_1_alg».proof.Proof.Gen.ReferenceIdeal.Run
import proofs.«163935_j3126736191980_1_alg».proof.Proof.Gen.ReferenceIdeal.Read
import proofs.«163935_j3126736191980_1_alg».proof.Proof.Gen.Pre_finite_inputs
import proofs.«163935_j3126736191980_1_alg».proof.Proof.KernelRun
import proofs.«163935_j3126736191980_1_alg».proof.Proof.RefIs
import Idealize.ShloMosaic.Adequacy
import Idealize.ShloMosaic.Init

noncomputable section

namespace Cert.Proof

open Idealize.ShloMosaic Idealize.SL.Sem

/-- The kernel runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: there is nothing to restate. -/
theorem preserves : Cert.preserves_Kernel_KernelIdeal := trivial

/-- At the extended reals, from memories that agree on the arguments, both programs end with the mean loss of those
    arguments as their scalar result. -/
theorem algebraic : Cert.algebraic_KernelIdeal_ReferenceIdeal := by
  intro m ρ m' ρ' _ hagree
  refine ⟨fun c _ => Cert.OrdinalBce.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Result.result_value m c), (h c).2⟩)
      (Cert.KernelIdeal.Result.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, Cert.ReferenceIdeal.RefValue.result_eq,
      (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
